-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S1x64 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩
abbrev S2000x64 : Shape := ⟨2, ![2000, 64]⟩
abbrev S2000x1 : Shape := ⟨2, ![2000, 1]⟩

abbrev nBuf : Space → Nat
  | .hbm => 42
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S64x64, .f32⟩
  | .hbm, ⟨38, _⟩ => ⟨S64x1, .f32⟩
  | .hbm, ⟨39, _⟩ => ⟨S1x64, .f32⟩
  | .hbm, ⟨40, _⟩ => ⟨S1x1, .f32⟩
  | .hbm, ⟨41, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x1, .f32⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  shapeCasts_S64_S1x64 : S64.ShapeCasts S1x64
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S64x1, .f32⟩
  | .hbm, ⟨45, _⟩ => ⟨S100000x1, .f32⟩
  | .hbm, ⟨46, _⟩ => ⟨S1x1, .f32⟩
  | .hbm, ⟨47, _⟩ => ⟨S100000x1, .f32⟩
  | .hbm, ⟨48, _⟩ => ⟨S100000x1, .f32⟩
  | .hbm, ⟨49, _⟩ => ⟨S100000x1, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelDots.lean ====
/-
  The kernel's two matrix products read at an index. On the extended reals a product into a zero accumulator is the
  plain sum over the contracted axis: for a [2000, 64] block against a [64, 64] matrix the entry (p, q) is
  Σ_k l(p, k) · r(k, q), and against a [64, 1] column likewise with q the one column. The dimension record's
  contraction index is carried to Fin 64 by the one-axis bijection; the operand indices it names at output (p, q)
  and contraction coordinate k are (p, k) on the left and (k, q) on the right.
-/
import proofs.«163495_j79577154060554_1_alg».proof.Proof.Gen.KernelIdeal
import Idealize.ShloMosaic.Lib.ValueIdx
import Idealize.ShloMosaic.PureOps.Ideal.Laws

noncomputable section

namespace Cert.Sage.KernelDots

open Cert.KernelIdeal Cert.KernelIdeal.Gen Idealize.ShloMosaic Idealize.ShloMosaic.ValueIdx

/-! ## The operand indices of the two records, coordinate by coordinate -/

theorem square_lhs0 (i : S2000x64.Idx) (c : dot_S2000x64_S64x64_S2000x64_1_0_0_1_n_n.contr.Idx) :
    (dot_S2000x64_S64x64_S2000x64_1_0_0_1_n_n.lhsIdx i c 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem square_lhs1 (i : S2000x64.Idx) (c : dot_S2000x64_S64x64_S2000x64_1_0_0_1_n_n.contr.Idx) :
    (dot_S2000x64_S64x64_S2000x64_1_0_0_1_n_n.lhsIdx i c 1).val = (c ⟨0, by decide⟩).val :=
  dot_S2000x64_S64x64_S2000x64_1_0_0_1_n_n.lhsIdx_val_of_single rfl i c
theorem square_rhs0 (i : S2000x64.Idx) (c : dot_S2000x64_S64x64_S2000x64_1_0_0_1_n_n.contr.Idx) :
    (dot_S2000x64_S64x64_S2000x64_1_0_0_1_n_n.rhsIdx i c 0).val = (c ⟨0, by decide⟩).val :=
  dot_S2000x64_S64x64_S2000x64_1_0_0_1_n_n.rhsIdx_val_of_single rfl i c
theorem square_rhs1 (i : S2000x64.Idx) (c : dot_S2000x64_S64x64_S2000x64_1_0_0_1_n_n.contr.Idx) :
    (dot_S2000x64_S64x64_S2000x64_1_0_0_1_n_n.rhsIdx i c 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem column_lhs0 (i : S2000x1.Idx) (c : dot_S2000x64_S64x1_S2000x1_1_0_0_1_n_n.contr.Idx) :
    (dot_S2000x64_S64x1_S2000x1_1_0_0_1_n_n.lhsIdx i c 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem column_lhs1 (i : S2000x1.Idx) (c : dot_S2000x64_S64x1_S2000x1_1_0_0_1_n_n.contr.Idx) :
    (dot_S2000x64_S64x1_S2000x1_1_0_0_1_n_n.lhsIdx i c 1).val = (c ⟨0, by decide⟩).val :=
  dot_S2000x64_S64x1_S2000x1_1_0_0_1_n_n.lhsIdx_val_of_single rfl i c
theorem column_rhs0 (i : S2000x1.Idx) (c : dot_S2000x64_S64x1_S2000x1_1_0_0_1_n_n.contr.Idx) :
    (dot_S2000x64_S64x1_S2000x1_1_0_0_1_n_n.rhsIdx i c 0).val = (c ⟨0, by decide⟩).val :=
  dot_S2000x64_S64x1_S2000x1_1_0_0_1_n_n.rhsIdx_val_of_single rfl i c
theorem column_rhs1 (i : S2000x1.Idx) (c : dot_S2000x64_S64x1_S2000x1_1_0_0_1_n_n.contr.Idx) :
    (dot_S2000x64_S64x1_S2000x1_1_0_0_1_n_n.rhsIdx i c 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-! ## The products as sums -/

/-- Rows of 64 against a 64 × 64 matrix, accumulated from zero: entry (p, q) is Σ_k l(p, k) · r(k, q). -/
theorem square_apply {φ₁ φ₂ : FTy} (l : FVec Ideal S2000x64 φ₁) (r : FVec Ideal S64x64 φ₂) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  show FloatOps.matmul dot_S2000x64_S64x64_S2000x64_1_0_0_1_n_n none l r (constant (F := Ideal) S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact square_lhs0 _ _
    | ⟨1, _⟩ => exact (square_lhs1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (square_rhs0 _ _).trans hk
    | ⟨1, _⟩ => exact square_rhs1 _ _)
  rw [el, er]

/-- Rows of 64 against a 64 × 1 column, accumulated from zero: entry (p, q) is Σ_k l(p, k) · r(k, q). -/
theorem column_apply {φ₁ φ₂ : FTy} (l : FVec Ideal S2000x64 φ₁) (r : FVec Ideal S64x1 φ₂) (p : Fin 2000) (q : Fin 1) :
    matmul dot_S2000x64_S64x1_S2000x1_1_0_0_1_n_n none l r (constant (F := Ideal) S2000x1 .f32 0x00000000#32) (ix2 p q)
      = ∑ k : Fin 64, l (ix2 p k) * r (ix2 k q) := by
  show FloatOps.matmul dot_S2000x64_S64x1_S2000x1_1_0_0_1_n_n none l r (constant (F := Ideal) S2000x1 .f32 0x00000000#32) (ix2 p q) = _
  rw [Ideal.matmul_constant_zero_apply, ← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q) ((contrEquiv1 dot_S2000x64_S64x1_S2000x1_1_0_0_1_n_n 64 rfl rfl).symm k) = ix2 p k := funext fun a => Fin.ext (by
    match a with
    | ⟨0, _⟩ => exact column_lhs0 _ _
    | ⟨1, _⟩ => exact (column_lhs1 _ _).trans hk)
  have er : dot_S2000x64_S64x1_S2000x1_1_0_0_1_n_n.rhsIdx (ix2 p q) ((contrEquiv1 dot_S2000x64_S64x1_S2000x1_1_0_0_1_n_n 64 rfl rfl).symm k) = ix2 k q := funext fun a => Fin.ext (by
    match a with
    | ⟨0, _⟩ => exact (column_rhs0 _ _).trans hk
    | ⟨1, _⟩ => exact column_rhs1 _ _)
  rw [el, er]

end Cert.Sage.KernelDots

end
-- ==== Proof.KernelBody.lean ====
/-
  What the kernel body stores, read at an index of its [2000, 1] block. The body takes a block of 2000 rows of the
  features and of the neighbourhood means, the two transposed 64 × 64 weight matrices, the bias row [1, 64], the
  output column [64, 1] and the output bias [1, 1]. Changes of float format are the identity on the extended reals
  and a product into a zero accumulator is a plain sum, so at row p the stored value is
      σ( Σ_k ((Σ_j mean(p, j) · Wlᵀ(j, k) + b(0, k)) + Σ_j x(p, j) · Wrᵀ(j, k)) · wfcᵀ(k, 0) + c(0, 0) ),
  σ the logistic function: the three products by the sums of the dimension records, the two broadcasts by reading
  the one row.
-/
import proofs.«163495_j79577154060554_1_alg».proof.Proof.Gen.KernelIdeal.Skeleton
import proofs.«163495_j79577154060554_1_alg».proof.Proof.KernelDots
import Idealize.ShloMosaic.Lib.ValueLayout
import Idealize.ShloMosaic.Lib.Pipeline.Value

noncomputable section

namespace Cert.Sage.KernelBody

open Cert.KernelIdeal Cert.KernelIdeal.Gen Idealize.ShloMosaic Idealize.ShloMosaic.ValueIdx

/-- The stored value at row `p` of the block (its one column `q`). -/
theorem payload_apply (x mean : Vec Ideal S2000x64 .f32) (wlt wrt : Vec Ideal S64x64 .f32) (b : Vec Ideal S1x64 .f32)
    (wfct : Vec Ideal S64x1 .f32) (c : Vec Ideal S1x1 .f32) (p : Fin 2000) (q : Fin 1) :
    k0_pay1 (F := Ideal) x mean wlt wrt b wfct c (ix2 p q)
      = Ideal.logistic ((∑ k : Fin 64, (((∑ j : Fin 64, mean (ix2 p j) * wlt (ix2 j k)) + b (ix2 (0 : Fin 1) k))
            + ∑ j : Fin 64, x (ix2 p j) * wrt (ix2 j k)) * wfct (ix2 k (0 : Fin 1))) + c (ix2 (0 : Fin 1) (0 : Fin 1))) := by
  obtain rfl : q = 0 := Subsingleton.elim _ _
  unfold k0_pay1
  simp only [shapeCast_self]
  refine congrArg Ideal.logistic ?_
  refine congrArg₂ (· + ·) ?_ (broadcastTo_1b_ab_apply c _ p 0)
  refine (KernelDots.column_apply _ _ p 0).trans ?_
  refine Finset.sum_congr rfl fun k _ => ?_
  refine congrArg₂ (· * ·) ?_ rfl
  refine congrArg₂ (· + ·) (congrArg₂ (· + ·) ?_ (broadcastTo_1b_ab_apply b _ p k)) ?_
  · exact KernelDots.square_apply _ _ p k
  · exact KernelDots.square_apply _ _ p k

end Cert.Sage.KernelBody

end
-- ==== Proof.KernelHost.lean ====
/-
  The small arrays the kernel's region finds, written by the host operations before it, read at an index:
  the two 64 × 64 weight matrices transposed (entry (j, k) of the transpose is entry (k, j) of the argument), the
  output row [1, 64] transposed to a column [64, 1], and the two biases recast with a leading unit axis
  ([64] as [1, 64], [1] as [1, 1]: the same entries). The neighbourhood-mean array, which the host computes from the
  features and the edge list, is only NAMED here (`meanArr`): nothing below looks inside it.
-/
import proofs.«163495_j79577154060554_1_alg».proof.Proof.Gen.KernelIdeal.Frame
import Idealize.ShloMosaic.Lib.StableHlo.Run
import Idealize.ShloMosaic.Lib.ValueLayout

noncomputable section

namespace Cert.Sage.KernelHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The neighbourhood-mean array as the region finds it: the array its second window reads, block by block. -/
def meanArr (c : Dev nD) : S100000x64.Idx → Elt Ideal .f32 := V m c (Pipeline.arrRef spec0 1)

/-! ## Each array as the host operation's term of the argument -/

theorem wlt_eq (c : Dev nD) : (V m c main_v23 : S64x64.Idx → Elt Ideal .f32)
    = transpose S64x64 [1, 0] (m ((c : Thread nD τ).loc main_arg2)) transposes_S64x64_S64x64_1_0 := by
  dsimp only [Gen.V, Gen.hostOps0]; after_results

theorem wrt_eq (c : Dev nD) : (V m c main_v24 : S64x64.Idx → Elt Ideal .f32)
    = transpose S64x64 [1, 0] (m ((c : Thread nD τ).loc main_arg4)) transposes_S64x64_S64x64_1_0 := by
  dsimp only [Gen.V, Gen.hostOps0]; after_results

theorem wfct_eq (c : Dev nD) : (V m c main_v25 : S64x1.Idx → Elt Ideal .f32)
    = transpose S64x1 [1, 0] (m ((c : Thread nD τ).loc main_arg5)) transposes_S1x64_S64x1_1_0 := by
  dsimp only [Gen.V, Gen.hostOps0]; after_results

theorem brow_eq (c : Dev nD) : (V m c main_v26 : S1x64.Idx → Elt Ideal .f32)
    = shapeCast S1x64 (m ((c : Thread nD τ).loc main_arg3)) shapeCasts_S64_S1x64 := by
  dsimp only [Gen.V, Gen.hostOps0]; after_results; rfl

theorem bout_eq (c : Dev nD) : (V m c main_v27 : S1x1.Idx → Elt Ideal .f32)
    = shapeCast S1x1 (m ((c : Thread nD τ).loc main_arg6)) shapeCasts_S1_S1x1 := by
  dsimp only [Gen.V, Gen.hostOps0]; after_results; rfl

/-! ## Read at an index -/

/-- The transposed neighbour weights at (j, k) are W_l at (k, j). -/
theorem wlt_apply (c : Dev nD) (j k : Fin 64) :
    (V m c main_v23 : S64x64.Idx → Elt Ideal .f32) (ix2 j k) = (m ((c : Thread nD τ).loc main_arg2) : S64x64.Idx → Elt Ideal .f32) (ix2 k j) :=
  (congrFun (wlt_eq m c) (ix2 j k)).trans (transpose_ix2_apply _ _ j k)

/-- The transposed root weights at (j, k) are W_r at (k, j). -/
theorem wrt_apply (c : Dev nD) (j k : Fin 64) :
    (V m c main_v24 : S64x64.Idx → Elt Ideal .f32) (ix2 j k) = (m ((c : Thread nD τ).loc main_arg4) : S64x64.Idx → Elt Ideal .f32) (ix2 k j) :=
  (congrFun (wrt_eq m c) (ix2 j k)).trans (transpose_ix2_apply _ _ j k)

/-- The output column at (k, 0) is the output row W_fc at (0, k). -/
theorem wfct_apply (c : Dev nD) (k : Fin 64) :
    (V m c main_v25 : S64x1.Idx → Elt Ideal .f32) (ix2 k (0 : Fin 1)) = (m ((c : Thread nD τ).loc main_arg5) : S1x64.Idx → Elt Ideal .f32) (ix2 (0 : Fin 1) k) :=
  (congrFun (wfct_eq m c) (ix2 k (0 : Fin 1))).trans (transpose_ix2_apply _ _ k (0 : Fin 1))

/-- The bias row at (0, k) is b_l at k. -/
theorem brow_apply (c : Dev nD) (k : Fin 64) :
    (V m c main_v26 : S1x64.Idx → Elt Ideal .f32) (ix2 (0 : Fin 1) k) = (m ((c : Thread nD τ).loc main_arg3) : S64.Idx → Elt Ideal .f32) (ix1 k) :=
  (congrFun (brow_eq m c) (ix2 (0 : Fin 1) k)).trans (shapeCast_a_1a_apply _ _ (0 : Fin 1) k)

/-- The output bias at (0, 0) is b_fc at 0. -/
theorem bout_apply (c : Dev nD) :
    (V m c main_v27 : S1x1.Idx → Elt Ideal .f32) (ix2 (0 : Fin 1) (0 : Fin 1)) = (m ((c : Thread nD τ).loc main_arg6) : S1.Idx → Elt Ideal .f32) (ix1 (0 : Fin 1)) :=
  (congrFun (bout_eq m c) (ix2 (0 : Fin 1) (0 : Fin 1))).trans (shapeCast_a_1a_apply _ _ (0 : Fin 1) (0 : Fin 1))

end Cert.Sage.KernelHost

end
-- ==== Proof.KernelReads.lean ====
/-
  Each input block of the kernel read at an index. The grid has 50 points; point t takes rows 2000·t … 2000·t + 1999
  of the features and of the neighbourhood means, and the five small arrays whole. A block's element at local
  coordinate y sits in its array at block index × block size + y on each axis, so a row block read at (p, j) is the array
  at (2000·t + p, j) and a whole block read at an index is the array there; the host layout reads then carry the small
  arrays to the arguments.
-/
import proofs.«163495_j79577154060554_1_alg».proof.Proof.Gen.KernelIdeal.Frame
import proofs.«163495_j79577154060554_1_alg».proof.Proof.KernelHost

noncomputable section

namespace Cert.Sage.KernelReads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block index of every window at every grid point: the two row-blocked inputs and the output move with the
    point along the rows, the five small arrays stay at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## Each input block read at an index -/

/-- Row p of the feature block at point t is row 2000·t + p of the features. -/
theorem x_blk (c : Dev nD) (t : Fin cfg0.N) (p : Fin 2000) (j : Fin 64) (r : Fin 100000) (hr : r.val = 2000 * t.val + p.val) :
    (iblk m c 0 t : Vec Ideal S2000x64 .f32) (ix2 p j) = ((m ((c : Thread nD τ).loc main_arg0)) : S100000x64.Idx → Elt Ideal .f32) (ix2 r j) := by
  obtain ⟨⟨e0, e1⟩, -⟩ := idx_facts t
  unfold iblk
  rw [View.read_apply]
  show V m c main_arg0 (((cfg0.win 0).blk t).view.emb (ix2 p j)) = _
  have h : ((cfg0.win 0).blk t).view.emb (ix2 p j) = ix2 r j := by
    funext a; apply Fin.ext
    match a with
    | ⟨0, _⟩ => show win0_0.index t (0 : Fin 2) * 2000 + 1 * p.val = r.val; rw [e0, hr]; omega
    | ⟨1, _⟩ => show win0_0.index t (1 : Fin 2) * 64 + 1 * j.val = j.val; rw [e1]; omega
  rw [h, V_main_arg0]

/-- Row p of the mean block at point t is row 2000·t + p of the mean array the region finds. (The element a block read
    returns is carried along the equation between the view's element type and the buffer's, which here is the identity.) -/
theorem mean_blk (c : Dev nD) (t : Fin cfg0.N) (p : Fin 2000) (j : Fin 64) (r : Fin 100000) (hr : r.val = 2000 * t.val + p.val) :
    (iblk m c 1 t : Vec Ideal S2000x64 .f32) (ix2 p j) = KernelHost.meanArr m c (ix2 r j) := by
  obtain ⟨-, ⟨e0, e1⟩, -⟩ := idx_facts t
  unfold iblk KernelHost.meanArr
  rw [View.read_apply]
  have h : ((cfg0.win 1).blk t).view.emb (ix2 p j) = ix2 r j := by
    funext a; apply Fin.ext
    match a with
    | ⟨0, _⟩ => show win0_1.index t (0 : Fin 2) * 2000 + 1 * p.val = r.val; rw [e0, hr]; omega
    | ⟨1, _⟩ => show win0_1.index t (1 : Fin 2) * 64 + 1 * j.val = j.val; rw [e1]; omega
  rw [h]
  exact cast_eq _ _

/-- The transposed neighbour weights' one block at (j, k) is W_l at (k, j). -/
theorem wl_blk (c : Dev nD) (t : Fin cfg0.N) (j k : Fin 64) :
    (iblk m c 2 t : Vec Ideal S64x64 .f32) (ix2 j k) = ((m ((c : Thread nD τ).loc main_arg2)) : S64x64.Idx → Elt Ideal .f32) (ix2 k j) := by
  obtain ⟨-, -, ⟨e0, e1⟩, -⟩ := idx_facts t
  unfold iblk
  rw [View.read_apply]
  show V m c main_v23 (((cfg0.win 2).blk t).view.emb (ix2 j k)) = _
  have h : ((cfg0.win 2).blk t).view.emb (ix2 j k) = ix2 j k := by
    funext a; apply Fin.ext
    match a with
    | ⟨0, _⟩ => show win0_2.index t (0 : Fin 2) * 64 + 1 * j.val = j.val; rw [e0]; omega
    | ⟨1, _⟩ => show win0_2.index t (1 : Fin 2) * 64 + 1 * k.val = k.val; rw [e1]; omega
  rw [h]
  exact KernelHost.wlt_apply m c j k

/-- The bias row's one block at (0, k) is b_l at k. -/
theorem bl_blk (c : Dev nD) (t : Fin cfg0.N) (k : Fin 64) :
    (iblk m c 3 t : Vec Ideal S1x64 .f32) (ix2 (0 : Fin 1) k) = ((m ((c : Thread nD τ).loc main_arg3)) : S64.Idx → Elt Ideal .f32) (ix1 k) := by
  obtain ⟨-, -, -, ⟨e0, e1⟩, -⟩ := idx_facts t
  unfold iblk
  rw [View.read_apply]
  show V m c main_v26 (((cfg0.win 3).blk t).view.emb (ix2 (0 : Fin 1) k)) = _
  have h : ((cfg0.win 3).blk t).view.emb (ix2 (0 : Fin 1) k) = ix2 (0 : Fin 1) k := by
    funext a; apply Fin.ext
    match a with
    | ⟨0, _⟩ => show win0_3.index t (0 : Fin 2) * 1 + 1 * 0 = 0; rw [e0]
    | ⟨1, _⟩ => show win0_3.index t (1 : Fin 2) * 64 + 1 * k.val = k.val; rw [e1]; omega
  rw [h]
  exact KernelHost.brow_apply m c k

/-- The transposed root weights' one block at (j, k) is W_r at (k, j). -/
theorem wr_blk (c : Dev nD) (t : Fin cfg0.N) (j k : Fin 64) :
    (iblk m c 4 t : Vec Ideal S64x64 .f32) (ix2 j k) = ((m ((c : Thread nD τ).loc main_arg4)) : S64x64.Idx → Elt Ideal .f32) (ix2 k j) := by
  obtain ⟨-, -, -, -, ⟨e0, e1⟩, -⟩ := idx_facts t
  unfold iblk
  rw [View.read_apply]
  show V m c main_v24 (((cfg0.win 4).blk t).view.emb (ix2 j k)) = _
  have h : ((cfg0.win 4).blk t).view.emb (ix2 j k) = ix2 j k := by
    funext a; apply Fin.ext
    match a with
    | ⟨0, _⟩ => show win0_4.index t (0 : Fin 2) * 64 + 1 * j.val = j.val; rw [e0]; omega
    | ⟨1, _⟩ => show win0_4.index t (1 : Fin 2) * 64 + 1 * k.val = k.val; rw [e1]; omega
  rw [h]
  exact KernelHost.wrt_apply m c j k

/-- The output column's one block at (k, 0) is W_fc at (0, k). -/
theorem wfc_blk (c : Dev nD) (t : Fin cfg0.N) (k : Fin 64) :
    (iblk m c 5 t : Vec Ideal S64x1 .f32) (ix2 k (0 : Fin 1)) = ((m ((c : Thread nD τ).loc main_arg5)) : S1x64.Idx → Elt Ideal .f32) (ix2 (0 : Fin 1) k) := by
  obtain ⟨-, -, -, -, -, ⟨e0, e1⟩, -⟩ := idx_facts t
  unfold iblk
  rw [View.read_apply]
  show V m c main_v25 (((cfg0.win 5).blk t).view.emb (ix2 k (0 : Fin 1))) = _
  have h : ((cfg0.win 5).blk t).view.emb (ix2 k (0 : Fin 1)) = ix2 k (0 : Fin 1) := by
    funext a; apply Fin.ext
    match a with
    | ⟨0, _⟩ => show win0_5.index t (0 : Fin 2) * 64 + 1 * k.val = k.val; rw [e0]; omega
    | ⟨1, _⟩ => show win0_5.index t (1 : Fin 2) * 1 + 1 * 0 = 0; rw [e1]
  rw [h]
  exact KernelHost.wfct_apply m c k

/-- The output bias's one block at (0, 0) is b_fc at 0. -/
theorem bfc_blk (c : Dev nD) (t : Fin cfg0.N) :
    (iblk m c 6 t : Vec Ideal S1x1 .f32) (ix2 (0 : Fin 1) (0 : Fin 1)) = ((m ((c : Thread nD τ).loc main_arg6)) : S1.Idx → Elt Ideal .f32) (ix1 (0 : Fin 1)) := by
  obtain ⟨-, -, -, -, -, -, ⟨e0, e1⟩, -⟩ := idx_facts t
  unfold iblk
  rw [View.read_apply]
  show V m c main_v27 (((cfg0.win 6).blk t).view.emb (ix2 (0 : Fin 1) (0 : Fin 1))) = _
  have h : ((cfg0.win 6).blk t).view.emb (ix2 (0 : Fin 1) (0 : Fin 1)) = ix2 (0 : Fin 1) (0 : Fin 1) := by
    funext a; apply Fin.ext
    match a with
    | ⟨0, _⟩ => show win0_6.index t (0 : Fin 2) * 1 + 1 * 0 = 0; rw [e0]
    | ⟨1, _⟩ => show win0_6.index t (1 : Fin 2) * 1 + 1 * 0 = 0; rw [e1]
  rw [h]
  exact KernelHost.bout_apply m c

end Cert.Sage.KernelReads

end
-- ==== Proof.SageSpec.lean ====
/-
  The result both programs compute, as one function of the arrays, index by index, on the extended reals.

  A node p has features x(p, ·) and an aggregated neighbourhood mean(p, ·) (64 entries each). The layer's hidden
  vector is
      h(p, k) = (Σ_j mean(p, j) · W_l(k, j) + b_l(k)) + Σ_j x(p, j) · W_r(k, j),        k < 64,
  and the output is the logistic function of the final linear form,
      out(p) = σ( Σ_k h(p, k) · W_fc(0, k) + b_fc(0) ),         σ(z) = 1 / (1 + e^(-z)).
  The grouping of the two sums and the bias in h is the one both programs use, so no law of the extended reals beyond
  the definitions is needed to join them: in particular nothing here depends on the inputs being finite.
  The neighbourhood mean enters as an array of its own: both programs compute it by the same chain of operations.
-/
import Idealize.ShloMosaic.PureOps.Ideal
import Idealize.ShloMosaic.Lib.ValueIdx

noncomputable section

namespace Cert.Sage

open Idealize.ShloMosaic Idealize.ShloMosaic.ValueIdx

/-- The hidden vector of node `p` at coordinate `k`: the neighbourhood term with its bias, then the root term. -/
def hidden (x mean : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (p : Fin 100000) (k : Fin 64) : EReal :=
  ((∑ j : Fin 64, mean (ix2 p j) * wl (ix2 k j)) + bl (ix1 k)) + ∑ j : Fin 64, x (ix2 p j) * wr (ix2 k j)

/-- The final linear form of node `p`: the hidden vector against the one output row, plus its bias. -/
def logit (x mean : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (wfc : FVec Ideal ⟨2, ![1, 64]⟩ .f32) (bfc : FVec Ideal ⟨1, ![1]⟩ .f32) (p : Fin 100000) : EReal :=
  (∑ k : Fin 64, hidden x mean wl bl wr p k * wfc (ix2 (0 : Fin 1) k)) + bfc (ix1 (0 : Fin 1))

/-- The output array: one logistic value per node. -/
def out (x mean : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (wfc : FVec Ideal ⟨2, ![1, 64]⟩ .f32) (bfc : FVec Ideal ⟨1, ![1]⟩ .f32) :
    FVec Ideal ⟨2, ![100000, 1]⟩ .f32 :=
  fun i => Ideal.logistic (logit x mean wl bl wr wfc bfc (i 0))

theorem out_apply (x mean : FVec Ideal ⟨2, ![100000, 64]⟩ .f32) (wl : FVec Ideal ⟨2, ![64, 64]⟩ .f32) (bl : FVec Ideal ⟨1, ![64]⟩ .f32)
    (wr : FVec Ideal ⟨2, ![64, 64]⟩ .f32) (wfc : FVec Ideal ⟨2, ![1, 64]⟩ .f32) (bfc : FVec Ideal ⟨1, ![1]⟩ .f32) (p : Fin 100000) (q : Fin 1) :
    out x mean wl bl wr wfc bfc (ix2 p q) = Ideal.logistic (logit x mean wl bl wr wfc bfc p) := rfl

end Cert.Sage

end
-- ==== Proof.KernelBlocks.lean ====
/-
  From the blocks to the whole output array. Point t of the 50 writes back rows 2000·t … 2000·t + 1999 of the
  [100000, 1] output; what it writes is the body's value of the point's input blocks, and each input block read at an
  index is the corresponding array at the shifted row (or, for the small arrays, the argument at the index the host
  layout names). So what point t writes back is block t of ONE function of the arrays — the specification's output —,
  the 50 blocks cover every row (row r lies in block r / 2000), and the output array ends holding that function.
-/
import proofs.«163495_j79577154060554_1_alg».proof.Proof.Gen.KernelIdeal.Value
import proofs.«163495_j79577154060554_1_alg».proof.Proof.KernelBody
import proofs.«163495_j79577154060554_1_alg».proof.Proof.KernelReads
import proofs.«163495_j79577154060554_1_alg».proof.Proof.SageSpec

noncomputable section

namespace Cert.Sage.KernelBlocks

open Cert.KernelIdeal Cert.KernelIdeal.Gen Idealize.ShloMosaic Idealize.ShloMosaic.TcCoe Idealize.SL.Sem
open Idealize.ShloMosaic.ValueIdx Cert.Sage.KernelReads
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array: the specification's function of the arguments and of the mean array the region finds. -/
abbrev result (c : Dev nD) : S100000x1.Idx → Elt Ideal .f32 :=
  Cert.Sage.out (m ((c : Thread nD τ).loc main_arg0)) (KernelHost.meanArr m c) (m ((c : Thread nD τ).loc main_arg2)) (m ((c : Thread nD τ).loc main_arg3))
    (m ((c : Thread nD τ).loc main_arg4)) (m ((c : Thread nD τ).loc main_arg5)) (m ((c : Thread nD τ).loc main_arg6))

/-- The body's value at point t, at row p of its block, is the specification's output at row 2000·t + p. -/
theorem body_row (c : Dev nD) (t : Fin cfg0.N) (p : Fin 2000) (r : Fin 100000) (hr : r.val = 2000 * t.val + p.val) :
    k0_pay1 (F := Ideal) (iblk m c 0 t) (iblk m c 1 t) (iblk m c 2 t) (iblk m c 4 t) (iblk m c 3 t) (iblk m c 5 t) (iblk m c 6 t) (ix2 p (0 : Fin 1))
      = result m c (ix2 r (0 : Fin 1)) := by
  refine (KernelBody.payload_apply (iblk m c 0 t) (iblk m c 1 t) (iblk m c 2 t) (iblk m c 4 t) (iblk m c 3 t) (iblk m c 5 t) (iblk m c 6 t) p (0 : Fin 1)).trans ?_
  refine Eq.trans ?_ (Cert.Sage.out_apply _ _ _ _ _ _ _ r (0 : Fin 1)).symm
  refine congrArg Ideal.logistic ?_
  unfold Cert.Sage.logit
  refine congrArg₂ (· + ·) (Finset.sum_congr rfl fun k _ => congrArg₂ (· * ·) ?_ (wfc_blk m c t k)) (bfc_blk m c t)
  unfold Cert.Sage.hidden
  exact congrArg₂ (· + ·)
    (congrArg₂ (· + ·) (Finset.sum_congr rfl fun j _ => congrArg₂ (· * ·) (mean_blk m c t p j r hr) (wl_blk m c t j k)) (bl_blk m c t k))
    (Finset.sum_congr rfl fun j _ => congrArg₂ (· * ·) (x_blk m c t p j r hr) (wr_blk m c t j k))

/-- Point t writes back block t of `result`. The body's value at the point is named once, so that reading it through
    the block and reading `result` through the block's rectangle never look inside it. -/
theorem flushed_eq (c : Dev nD) (t : Fin cfg0.N) :
    (dats m 0 c).flushed 7 t = ((cfg0.win 7).blk t).view.read (Elt Ideal) (result m c) := by
  have hN : cfg0.N = 50 := N_0
  obtain ⟨-, -, -, -, -, -, -, ⟨e0, e1⟩⟩ := idx_facts t
  have hrow := body_row m c t
  rw [Cert.KernelIdeal.Value.flushed7]
  unfold out0_7
  rw [View.canon_unit_zero hz]
  simp only [View.ld_unit_zero (S := S2000x64) hz, View.ld_unit_zero (S := S64x64) hz, View.ld_unit_zero (S := S1x64) hz,
    View.ld_unit_zero (S := S64x1) hz, View.ld_unit_zero (S := S1x1) hz]
  generalize k0_pay1 (F := Ideal) (iblk m c 0 t) (iblk m c 1 t) (iblk m c 2 t) (iblk m c 4 t) (iblk m c 3 t) (iblk m c 5 t) (iblk m c 6 t) = W at hrow ⊢
  generalize result m c = R at hrow ⊢
  funext y
  obtain ⟨p, q, rfl⟩ : ∃ (p : Fin 2000) (q : Fin 1), y = ix2 p q := ⟨y 0, y 1, eq_ix2 y⟩
  obtain rfl : q = 0 := Subsingleton.elim _ _
  have hp : p.val < 2000 := p.isLt
  have ht : t.val < 50 := hN ▸ t.isLt
  have hr : (⟨2000 * t.val + p.val, by omega⟩ : Fin 100000).val = 2000 * t.val + p.val := rfl
  rw [View.read_apply]
  have h : ((cfg0.win 7).blk t).view.emb (ix2 p (0 : Fin 1)) = ix2 (⟨2000 * t.val + p.val, by omega⟩ : Fin 100000) (0 : Fin 1) := by
    funext a; apply Fin.ext
    match a with
    | ⟨0, _⟩ => show win0_7.index t (0 : Fin 2) * 2000 + 1 * p.val = 2000 * t.val + p.val; rw [e0]; omega
    | ⟨1, _⟩ => show win0_7.index t (1 : Fin 2) * 1 + 1 * 0 = 0; rw [e1]
  rw [h, cast_eq]
  exact hrow p _ hr

/-- An index of the output array lies in point t's block iff each coordinate lies in the block's range on its axis. -/
theorem mem_blk (t : Fin cfg0.N) (i : S100000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v28).slice (win0_7.rect t)).set ↔ _
  rw [View.set_slice_whole, Rect.mem_set_unit]
  exact Iff.rfl

/-- Every row of the output lies in some point's block: row r in block r / 2000. -/
theorem cover (i : S100000x1.Idx) : ∃ t : Fin cfg0.N, (cfg0.win 7).flush t = true ∧ i ∈ ((cfg0.win 7).blk t).view.set := by
  have hN : cfg0.N = 50 := N_0
  have hi0 : (i 0).val < 100000 := (i 0).isLt
  have hi1 : (i 1).val < 1 := (i 1).isLt
  have hlt : (i 0).val / 2000 < cfg0.N := by rw [hN]; omega
  obtain ⟨-, -, -, -, -, -, -, ⟨e0, e1⟩⟩ := idx_facts ⟨(i 0).val / 2000, hlt⟩
  refine ⟨⟨(i 0).val / 2000, hlt⟩, flush0_7 _, ?_⟩
  rw [mem_blk]
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hlt⟩ (1 : Fin 2) * 1 ≤ (i 1).val ∧ (i 1).val < win0_7.index ⟨(i 0).val / 2000, hlt⟩ (1 : Fin 2) * 1 + 1
    rw [e1]; omega

/-- So the output array ends holding `result`. -/
theorem final (c : Dev nD) : (dats m 0 c).arrAt 7 cfg0.N = result m c :=
  (dats m 0 c).arrAt_eq_of_cover 7 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Sage.KernelBlocks

end
-- ==== Proof.RefValue.lean ====
/-
  The reference's result is the specification's function of the arguments and of its own neighbourhood mean.
  Its last four operations spell the logistic function out — 1 / (1 + e^(-z)), with the word 0x3F800000 the number 1 —
  which on the extended reals is the logistic function by definition. Below them the final linear form is read one
  operation at a time: each of the three products as the sum over the contracted axis, each transposed weight at the
  swapped index, each bias at its one coordinate. The index functions the generated reading composes are identified
  with the specification's (p, j), (k, j), (0, k) by comparing coordinates.
-/
import proofs.«163495_j79577154060554_1_alg».proof.Proof.Gen.ReferenceIdeal.Read
import proofs.«163495_j79577154060554_1_alg».proof.Proof.SageSpec
import Idealize.ShloMosaic.PureOps.IdealRules

noncomputable section

namespace Cert.Sage.RefValue

open Cert.ReferenceIdeal Cert.ReferenceIdeal.Gen Cert.ReferenceIdeal.Read Idealize.ShloMosaic Idealize.ShloMosaic.ValueIdx

/-- The float word of 1.0 is the number 1. -/
theorem ofBits_one : Ideal.ofBits .f32 0x3F800000#32 = 1 := IdealRules.sign_bit.ideal_onePat .f32

/-- The host's spelling 1 / (1 + e^(-z)) is the logistic function. -/
theorem logistic_form (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def, Ideal.ofBits_def, ofBits_one]
  rfl

/-! ## The composed index functions, by coordinates -/

theorem lidx32 (p : Fin 100000) (q : Fin 1) (k : Fin 64) : lidx_main_v32 (ix2 p q) k = ix2 p k :=
  funext fun a => Fin.ext (by match a with | ⟨0, _⟩ => rfl | ⟨1, _⟩ => rfl)
theorem ridx32 (p : Fin 100000) (k : Fin 64) : idx_main_v31 (ridx_main_v32 (ix2 p (0 : Fin 1)) k) = ix2 (0 : Fin 1) k :=
  funext fun a => Fin.ext (by match a with | ⟨0, _⟩ => rfl | ⟨1, _⟩ => rfl)
theorem bidx34 (p : Fin 100000) : idx_main_v33 (idx_main_v34 (ix2 p (0 : Fin 1))) = ix1 (0 : Fin 1) :=
  funext fun a => Fin.ext (by match a with | ⟨0, _⟩ => rfl)
theorem lidx24 (p : Fin 100000) (k j : Fin 64) : lidx_main_v24 (ix2 p k) j = ix2 p j :=
  funext fun a => Fin.ext (by match a with | ⟨0, _⟩ => rfl | ⟨1, _⟩ => rfl)
theorem ridx24 (p : Fin 100000) (k j : Fin 64) : idx_main_v23 (ridx_main_v24 (ix2 p k) j) = ix2 k j :=
  funext fun a => Fin.ext (by match a with | ⟨0, _⟩ => rfl | ⟨1, _⟩ => rfl)
theorem bidx26 (p : Fin 100000) (k : Fin 64) : idx_main_v25 (idx_main_v26 (ix2 p k)) = ix1 k :=
  funext fun a => Fin.ext (by match a with | ⟨0, _⟩ => rfl)
theorem lidx29 (p : Fin 100000) (k j : Fin 64) : lidx_main_v29 (ix2 p k) j = ix2 p j :=
  funext fun a => Fin.ext (by match a with | ⟨0, _⟩ => rfl | ⟨1, _⟩ => rfl)
theorem ridx29 (p : Fin 100000) (k j : Fin 64) : idx_main_v28 (ridx_main_v29 (ix2 p k) j) = ix2 k j :=
  funext fun a => Fin.ext (by match a with | ⟨0, _⟩ => rfl | ⟨1, _⟩ => rfl)

/-! ## The hidden vector, the linear form, the result -/

/-- The reference's hidden array at (p, k) is the specification's hidden vector of node p at k. -/
theorem hidden_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (p : Fin 100000) (k : Fin 64) :
    val_main_v30 (F := Ideal) x0 x1 x2 x3 x4 (ix2 p k) = Cert.Sage.hidden x0 (val_main_v22 (F := Ideal) x0 x1) x2 x3 x4 p k := by
  rw [val_main_v30_apply, val_main_v27_apply, val_main_v24_apply, val_main_v26_apply, val_main_v25_apply, val_main_v29_apply]
  unfold Cert.Sage.hidden
  refine congrArg₂ (· + ·) (congrArg₂ (· + ·) (Finset.sum_congr rfl fun j _ => ?_) ?_) (Finset.sum_congr rfl fun j _ => ?_)
  · rw [val_main_v23_apply, lidx24, ridx24]
  · rw [bidx26]
  · rw [val_main_v28_apply, lidx29, ridx29]

/-- The reference's array before the logistic function, at node p, is the specification's linear form. -/
theorem logit_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S1x64, .f32⟩ : BufTy).Contents (Elt Ideal))
    (x6 : (⟨S1, .f32⟩ : BufTy).Contents (Elt Ideal)) (p : Fin 100000) :
    val_main_v35 (F := Ideal) x0 x1 x2 x3 x4 x5 x6 (ix2 p (0 : Fin 1))
      = Cert.Sage.logit x0 (val_main_v22 (F := Ideal) x0 x1) x2 x3 x4 x5 x6 p := by
  rw [val_main_v35_apply, val_main_v34_apply, val_main_v33_apply, val_main_v32_apply]
  unfold Cert.Sage.logit
  refine congrArg₂ (· + ·) (Finset.sum_congr rfl fun k _ => congrArg₂ (· * ·) ?_ ?_) ?_
  · rw [lidx32]; exact hidden_eq x0 x1 x2 x3 x4 p k
  · rw [val_main_v31_apply, ridx32]
  · rw [bidx34]

/-- The reference's result array is the specification's output of its arguments and its own mean array. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S1x64, .f32⟩ : BufTy).Contents (Elt Ideal))
    (x6 : (⟨S1, .f32⟩ : BufTy).Contents (Elt Ideal)) :
    val_main_v41 (F := Ideal) x0 x1 x2 x3 x4 x5 x6 = Cert.Sage.out x0 (val_main_v22 (F := Ideal) x0 x1) x2 x3 x4 x5 x6 := by
  funext i
  obtain ⟨p, q, rfl⟩ : ∃ (p : Fin 100000) (q : Fin 1), i = ix2 p q := ⟨i 0, i 1, eq_ix2 i⟩
  obtain rfl : q = 0 := Subsingleton.elim _ _
  rw [Cert.Sage.out_apply, val_main_v41_apply, val_main_v40_apply, val_main_cst_5_apply, val_main_v39_apply, val_main_v38_apply,
    val_main_cst_4_apply, val_main_v37_apply, val_main_v36_apply, logistic_form]
  exact congrArg Ideal.logistic (logit_eq x0 x1 x2 x3 x4 x5 x6 p)

end Cert.Sage.RefValue

end
-- ==== Proof.MeanBridge.lean ====
/-
  The neighbourhood mean. Both programs compute it from the features and the edge list by the same chain of host
  operations — the two rows of the edge list, negative source indices wrapped by the node count, the rows of the
  features gathered at the sources and added up at the destinations, the destinations counted the same way, the count
  raised to at least one, and the quotient — so the array the kernel's region finds is the reference's mean stage of the
  same two arguments. The chain is carried as one term and never opened.
-/
import proofs.«163495_j79577154060554_1_alg».proof.Proof.Gen.KernelIdeal.Frame
import proofs.«163495_j79577154060554_1_alg».proof.Proof.KernelHost
import proofs.«163495_j79577154060554_1_alg».proof.Proof.Gen.ReferenceIdeal.Read
import Idealize.ShloMosaic.Lib.StableHlo.Run

noncomputable section

namespace Cert.Sage.MeanBridge

open Idealize.ShloMosaic Idealize.ShloMosaic.TcCoe Idealize.SL.Sem Idealize.ShloMosaic.StableHlo

set_option maxHeartbeats 400000 in
/-- The mean array as the kernel's region finds it is the reference's mean stage of the features and the edge list. -/
theorem mean_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v22 : Cert.KernelIdeal.S100000x64.Idx → Elt Ideal .f32)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

/-- So is the array the second window reads, under its name. -/
theorem meanArr_eq (m : (ℓ : Loc Cert.KernelIdeal.nD Cert.KernelIdeal.τ Cert.KernelIdeal.sig) → Buf (Elt Ideal) ℓ) (c : Dev Cert.KernelIdeal.nD) :
    Cert.Sage.KernelHost.meanArr m c
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  unfold Cert.Sage.KernelHost.meanArr
  exact mean_eq m c

end Cert.Sage.MeanBridge

end
-- ==== Proof.lean ====
/-
  The certificate of a graph layer's dense head: a tiled kernel against its plain reference, on the extended reals.

  Both programs first form, with the SAME host operations, the neighbourhood mean of every node (features gathered at
  the edges' sources, added up at their destinations, divided by the destination count raised to at least one). The
  kernel then runs over 50 blocks of 2000 nodes: for node p it forms the hidden vector
      h(p, k) = (Σ_j mean(p, j) · W_l(k, j) + b_l(k)) + Σ_j x(p, j) · W_r(k, j)
  by two matrix products into zero accumulators, then σ(Σ_k h(p, k) · W_fc(0, k) + b_fc(0)) with σ the logistic
  function, rounding operands to a shorter float format on the way (the identity on the extended reals). The reference
  computes the same sums with whole-array products and spells σ as 1 / (1 + e^(-z)), which is the logistic function by
  definition. The grouping of the sums is the same on both sides, so the two results are one function of the arguments,
  index by index (`Cert.Sage.out`), and no property of the inputs is used: the precondition is never opened.

  The three frames are the generated frame certificates (for the reference, its generated run with the result
  dropped); the idealization rewrote nothing, so `preserves` holds trivially; `algebraic` sets the kernel's run, read
  block by block into the whole output array, beside the reference's run read one operation at a time.
-/
import proofs.«163495_j79577154060554_1_alg».proof.Defs
import proofs.«163495_j79577154060554_1_alg».proof.Proof.Gen.Kernel
import proofs.«163495_j79577154060554_1_alg».proof.Proof.Gen.Kernel.Skeleton
import proofs.«163495_j79577154060554_1_alg».proof.Proof.Gen.Kernel.Launch
import proofs.«163495_j79577154060554_1_alg».proof.Proof.Gen.Kernel.Points
import proofs.«163495_j79577154060554_1_alg».proof.Proof.Gen.Kernel.Frame
import proofs.«163495_j79577154060554_1_alg».proof.Proof.Gen.KernelIdeal
import proofs.«163495_j79577154060554_1_alg».proof.Proof.Gen.KernelIdeal.Skeleton
import proofs.«163495_j79577154060554_1_alg».proof.Proof.Gen.KernelIdeal.Launch
import proofs.«163495_j79577154060554_1_alg».proof.Proof.Gen.KernelIdeal.Points
import proofs.«163495_j79577154060554_1_alg».proof.Proof.Gen.KernelIdeal.Frame
import proofs.«163495_j79577154060554_1_alg».proof.Proof.Gen.ReferenceIdeal
import proofs.«163495_j79577154060554_1_alg».proof.Proof.Gen.KernelIdeal.Value
import proofs.«163495_j79577154060554_1_alg».proof.Proof.Gen.ReferenceIdeal.Run
import proofs.«163495_j79577154060554_1_alg».proof.Proof.Gen.ReferenceIdeal.Read
import proofs.«163495_j79577154060554_1_alg».proof.Proof.Gen.Pre_finite_inputs
import proofs.«163495_j79577154060554_1_alg».proof.Proof.KernelBlocks
import proofs.«163495_j79577154060554_1_alg».proof.Proof.RefValue
import proofs.«163495_j79577154060554_1_alg».proof.Proof.MeanBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on the arguments, the kernel's output array ends at the specification's function of the
    arguments and of the mean array its region finds; the reference's result is the same function of the arguments and of
    its own mean stage; and the two mean arrays are one term of the features and the edge list. -/
theorem algebraic : Cert.algebraic_KernelIdeal_ReferenceIdeal := by
  intro m ρ m' ρ' _ hagree
  refine ⟨fun c => Cert.Sage.KernelBlocks.result m c, Cert.Sage.KernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v41_eq, Cert.Sage.RefValue.result_eq, h0, h1, h2, h3, h4, h5, h6]
  show Cert.Sage.out _ _ _ _ _ _ _ = Cert.Sage.out _ (Cert.Sage.KernelHost.meanArr m c) _ _ _ _ _
  rw [Cert.Sage.MeanBridge.meanArr_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
